-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x1 .f32) (main_arg5 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x64 : Shape := ⟨2, ![850000, 64]⟩
abbrev S5000x64 : Shape := ⟨2, ![5000, 64]⟩
abbrev S5000x1 : Shape := ⟨2, ![5000, 1]⟩
abbrev S1x64 : Shape := ⟨2, ![1, 64]⟩
abbrev S1x1 : Shape := ⟨2, ![1, 1]⟩

abbrev nBuf : Space → Nat
  | .hbm => 74
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S50000x1, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x1, .f32⟩
  | .hbm, ⟨66, _⟩ => ⟨S_, .f32⟩
  | .hbm, ⟨67, _⟩ => ⟨S50000x1, .f32⟩
  | .hbm, ⟨68, _⟩ => ⟨S850000x1, .i32⟩
  | .hbm, ⟨69, _⟩ => ⟨S50000x1, .f32⟩
  | .hbm, ⟨70, _⟩ => ⟨S50000x1, .f32⟩
  | .hbm, ⟨71, _⟩ => ⟨S1x1, .f32⟩
  | .hbm, ⟨72, _⟩ => ⟨S50000x1, .f32⟩
  | .hbm, ⟨73, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64, .f32⟩
  | .local _ .vmem, ⟨8, _⟩ => ⟨S64x1, .f32⟩
  | .local _ .vmem, ⟨9, _⟩ => ⟨S5000x1, .f32⟩
  | .local _ .vmem, ⟨10, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S50000x1.size a
  hwx0_6 : ∀ i : grid0.Coords, EltTy.bits .f32 = 32 ∨ (Rect.block (s := S50000x1) S5000x1.size (cc0_transform_6 i) (hinb0_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_v35) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S5000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x64 : Shape := ⟨2, ![850000, 64]⟩
abbrev S1x64 : Shape := ⟨2, ![1, 64]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S_, .f32⟩
  | .hbm, ⟨63, _⟩ => ⟨S50000x64, .f32⟩
  | .hbm, ⟨64, _⟩ => ⟨S50000x64, .f32⟩
  | .hbm, ⟨65, _⟩ => ⟨S50000x1, .f32⟩
  | .hbm, ⟨66, _⟩ => ⟨S50000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x1, .f32⟩
  | .hbm, ⟨76, _⟩ => ⟨S_, .f32⟩
  | .hbm, ⟨77, _⟩ => ⟨S50000x1, .f32⟩
  | .hbm, ⟨78, _⟩ => ⟨S850000x1, .i32⟩
  | .hbm, ⟨79, _⟩ => ⟨S50000x1, .f32⟩
  | .hbm, ⟨80, _⟩ => ⟨S50000x1, .f32⟩
  | .hbm, ⟨81, _⟩ => ⟨S1x1, .f32⟩
  | .hbm, ⟨82, _⟩ => ⟨S50000x1, .f32⟩
  | .hbm, ⟨83, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call2_cst : Ref sig .tc := ⟨.hbm, 62, rfl⟩
abbrev main_call2_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.HostChain.lean ====
/-
  The operations both programs apply after the dense middle, as one function.

  Given the per-node values `z` (one column), both programs gather `z` along the edge list's source nodes
  (self-loops appended, negative indices wrapped), add the gathered values into their destination nodes starting
  from zero, multiply by the in-degree factors and add the output bias. `tail z e b₂` is that chain, written with
  the reference's own stages for everything that does not depend on `z`: the edge lists and the degree factors
  are functions of the edge array `e` alone. The chain is never opened: the two programs are compared by showing
  that they feed it the same `z`.
-/
import proofs.«182225_j463856468204_2_alg».proof.Proof.RefReadPatched

noncomputable section

namespace Cert.ReferenceIdeal.Chain

open Idealize.ShloMosaic Cert.ReferenceIdeal Cert.ReferenceIdeal.ReadP

variable {F : FTy → Type} [FloatOps F]

/-- The second neighbour sum of `z` over the edges of `x1`, scaled by the in-degree factors, plus the bias `x5`. -/
def tail (z : (⟨S50000x1, .f32⟩ : BufTy).Contents (Elt F)) (x1 : (⟨S2x800000, .i32⟩ : BufTy).Contents (Elt F))
    (x5 : (⟨S1, .f32⟩ : BufTy).Contents (Elt F)) : (⟨S50000x1, .f32⟩ : BufTy).Contents (Elt F) :=
  addf (mulf (Host.scatterAdd scatter_S50000x1_S850000x1_S850000x1_1_0_0_1 (val_main_v52 (F := F)) (val_main_v53 (F := F) x1)
      (Host.gather gather_S50000x1_S850000x1_S850000x1_1_0_n_n_0_1_11 z (val_main_v50 (F := F) x1)))
    (val_main_v23 (F := F) x1)) (val_main_v57 (F := F) x5)

/-- The reference's result is the chain applied to its dense middle, stage %44. -/
theorem stage58_eq (x0 : (⟨S50000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F))
    (x4 : (⟨S64x1, .f32⟩ : BufTy).Contents (Elt F)) (x5 : (⟨S1, .f32⟩ : BufTy).Contents (Elt F)) :
    val_main_v58 (F := F) x0 x1 x2 x3 x4 x5 = tail (val_main_v44 (F := F) x0 x1 x2 x3 x4) x1 x5 := by
  unfold val_main_v58 val_main_v55 val_main_v54 val_main_v51 tail
  rfl

end Cert.ReferenceIdeal.Chain

end
-- ==== Proof.DensePass.lean ====
/-
  The dense middle of the two-layer graph convolution, as one function of arrays.

  Between the two neighbour sums every node is treated alone. With `x` the node's row of the first neighbour sum
  (64 features), `d` its in-degree factor and `s` its out-degree factor, the node's value is

      ( Σ_j  max( Σ_k (x k · d) · W₁ k j + b₁ j , 0 ) · W₂ j u ) · s ,

  the first layer's rectified outputs pushed through the second layer's one column `u` and scaled for the second
  neighbour sum. `dense A` is this for `A` nodes at once, reading the row, the two factors and the weights out of
  arrays. A block of consecutive nodes of the whole array is `dense` of the blocks: nothing in a node's value looks at
  another node, which is all that tiling the node axis needs.
-/
import Idealize.ShloMosaic.PureOps.Ideal.Laws
import Idealize.ShloMosaic.Lib.ValueIdx

noncomputable section

namespace Cert.DensePass

open Idealize.ShloMosaic Idealize.ShloMosaic.ValueIdx Finset

/-- One node: its feature row `x` scaled by `d`, the first layer with bias and rectifier, the second layer's column
    `u`, scaled by `s`. -/
def node (x : Fin 64 → EReal) (d s : EReal) (W1 : Fin 64 → Fin 64 → EReal) (b1 : Fin 64 → EReal)
    (W2 : Fin 64 → Fin 1 → EReal) (u : Fin 1) : EReal :=
  (∑ j : Fin 64, max ((∑ k : Fin 64, (x k * d) * W1 k j) + b1 j) 0 * W2 j u) * s

/-- `A` nodes: node `p` reads row `p` of `M`, entry `p` of the two factor columns, and the shared weights. -/
def dense (A : ℕ) (M : (⟨2, ![A, 64]⟩ : Shape).Idx → EReal) (nd ns : (⟨2, ![A, 1]⟩ : Shape).Idx → EReal)
    (W1 : (⟨2, ![64, 64]⟩ : Shape).Idx → EReal) (b1 : (⟨1, ![64]⟩ : Shape).Idx → EReal)
    (W2 : (⟨2, ![64, 1]⟩ : Shape).Idx → EReal) : (⟨2, ![A, 1]⟩ : Shape).Idx → EReal :=
  fun i => node (fun k => M (ix2 (i 0) k)) (nd (ix2 (i 0) (i 1))) (ns (ix2 (i 0) (i 1)))
    (fun k j => W1 (ix2 k j)) (fun j => b1 (ix1 j)) (fun j u => W2 (ix2 j u)) (i 1)

/-- `dense` at an index written by its coordinates. -/
theorem dense_apply (A : ℕ) (M : (⟨2, ![A, 64]⟩ : Shape).Idx → EReal) (nd ns : (⟨2, ![A, 1]⟩ : Shape).Idx → EReal)
    (W1 : (⟨2, ![64, 64]⟩ : Shape).Idx → EReal) (b1 : (⟨1, ![64]⟩ : Shape).Idx → EReal)
    (W2 : (⟨2, ![64, 1]⟩ : Shape).Idx → EReal) (p : Fin A) (u : Fin 1) :
    dense A M nd ns W1 b1 W2 (ix2 p u)
      = (∑ j : Fin 64, max ((∑ k : Fin 64, (M (ix2 p k) * nd (ix2 p u)) * W1 (ix2 k j)) + b1 (ix1 j)) 0 * W2 (ix2 j u))
          * ns (ix2 p u) := rfl

/-- A node's value depends on its own row, its own two factors and the weights only: if node `p` of one family of
    arrays and node `q` of another have the same row and factors, and the two families' weights agree entry by entry,
    the dense pass gives node `p` of the one the value it gives node `q` of the other. This is what lets a block of
    nodes be computed from the blocks of the arrays. -/
theorem dense_congr {A B : ℕ} (M : (⟨2, ![A, 64]⟩ : Shape).Idx → EReal) (nd ns : (⟨2, ![A, 1]⟩ : Shape).Idx → EReal)
    (W1 : (⟨2, ![64, 64]⟩ : Shape).Idx → EReal) (b1 : (⟨1, ![64]⟩ : Shape).Idx → EReal) (W2 : (⟨2, ![64, 1]⟩ : Shape).Idx → EReal)
    (M' : (⟨2, ![B, 64]⟩ : Shape).Idx → EReal) (nd' ns' : (⟨2, ![B, 1]⟩ : Shape).Idx → EReal)
    (W1' : (⟨2, ![64, 64]⟩ : Shape).Idx → EReal) (b1' : (⟨1, ![64]⟩ : Shape).Idx → EReal) (W2' : (⟨2, ![64, 1]⟩ : Shape).Idx → EReal)
    (p : Fin A) (q : Fin B) (u : Fin 1)
    (hM : ∀ k : Fin 64, M (ix2 p k) = M' (ix2 q k)) (hd : nd (ix2 p u) = nd' (ix2 q u)) (hs : ns (ix2 p u) = ns' (ix2 q u))
    (hW1 : ∀ k j : Fin 64, W1 (ix2 k j) = W1' (ix2 k j)) (hb1 : ∀ j : Fin 64, b1 (ix1 j) = b1' (ix1 j))
    (hW2 : ∀ j : Fin 64, W2 (ix2 j u) = W2' (ix2 j u)) :
    dense A M nd ns W1 b1 W2 (ix2 p u) = dense B M' nd' ns' W1' b1' W2' (ix2 q u) := by
  rw [dense_apply, dense_apply, hd, hs]
  simp only [hM, hW1, hb1, hW2]

/-- Equal arrays give equal dense passes. -/
theorem dense_of_eq {A : ℕ} {M M' : (⟨2, ![A, 64]⟩ : Shape).Idx → EReal} {nd nd' ns ns' : (⟨2, ![A, 1]⟩ : Shape).Idx → EReal}
    {W1 W1' : (⟨2, ![64, 64]⟩ : Shape).Idx → EReal} {b1 b1' : (⟨1, ![64]⟩ : Shape).Idx → EReal}
    {W2 W2' : (⟨2, ![64, 1]⟩ : Shape).Idx → EReal}
    (hM : M = M') (hd : nd = nd') (hs : ns = ns') (hW1 : W1 = W1') (hb1 : b1 = b1') (hW2 : W2 = W2') :
    dense A M nd ns W1 b1 W2 = dense A M' nd' ns' W1' b1' W2' := by
  subst hM hd hs hW1 hb1 hW2
  rfl

end Cert.DensePass

end
-- ==== Proof.RefDense.lean ====
/-
  The reference's dense middle is the dense pass of its own first neighbour sum and degree factors.

  Between its two neighbour sums the reference spreads the in-degree column over the 64 features and multiplies,
  takes the product with W₁, adds the bias (made a row, then spread over the nodes), rectifies against a zero
  constant, takes the product with W₂ and multiplies by the out-degree column. Each step is read at an index from
  the step before: a `dot_general` with one contracted axis is the plain sum over it, the spread column reads its
  entry of the node, the spread bias row its entry of the feature, the zero constant is 0. Node `p` of the result is
  `DensePass.node` of row `p` of the neighbour sum and entry `p` of the two factor columns.
-/
import proofs.«182225_j463856468204_2_alg».proof.Proof.RefReadPatched
import proofs.«182225_j463856468204_2_alg».proof.Proof.DensePass

noncomputable section

namespace Cert.ReferenceIdeal.Dense

open Idealize.ShloMosaic Idealize.ShloMosaic.ValueIdx Cert.ReferenceIdeal Cert.ReferenceIdeal.ReadP Cert.DensePass Finset

/-- The second product reads the rectified activations of node `p` at feature `j`, -/
theorem left43 (p : Fin 50000) (u : Fin 1) (j : Fin 64) : lidx_main_v43 (ix2 p u) j = ix2 p j :=
  funext fun a => Fin.ext (by match a with | ⟨0, _⟩ => rfl | ⟨1, _⟩ => rfl)

/-- against W₂ at (j, u). -/
theorem right43 (p : Fin 50000) (u : Fin 1) (j : Fin 64) : ridx_main_v43 (ix2 p u) j = ix2 j u :=
  funext fun a => Fin.ext (by match a with | ⟨0, _⟩ => rfl | ⟨1, _⟩ => rfl)

/-- The first product reads the scaled row of node `p` at feature `k`, -/
theorem left38 (p : Fin 50000) (j k : Fin 64) : lidx_main_v38 (ix2 p j) k = ix2 p k :=
  funext fun a => Fin.ext (by match a with | ⟨0, _⟩ => rfl | ⟨1, _⟩ => rfl)

/-- against W₁ at (k, j). -/
theorem right38 (p : Fin 50000) (j k : Fin 64) : ridx_main_v38 (ix2 p j) k = ix2 k j :=
  funext fun a => Fin.ext (by match a with | ⟨0, _⟩ => rfl | ⟨1, _⟩ => rfl)

/-- The bias spread over the nodes reads the one row at feature `j`, -/
theorem row40 (p : Fin 50000) (j : Fin 64) : idx_main_v40 (ix2 p j) = ix2 (0 : Fin 1) j :=
  funext fun a => Fin.ext (by match a with | ⟨0, _⟩ => rfl | ⟨1, _⟩ => rfl)

/-- which reads the bias vector at `j`. -/
theorem vec39 (j : Fin 64) : idx_main_v39 (ix2 (0 : Fin 1) j) = ix1 j :=
  funext fun a => Fin.ext (by match a with | ⟨0, _⟩ => rfl)

/-- The in-degree column spread over the features reads entry `p`. -/
theorem col36 (p : Fin 50000) (k : Fin 64) : idx_main_v36 (ix2 p k) = ix2 p (0 : Fin 1) :=
  funext fun a => Fin.ext (by match a with | ⟨0, _⟩ => rfl | ⟨1, _⟩ => rfl)

/-- Stage %44 — the second layer's outputs scaled by the out-degree factors — is the dense pass of stage %35 (the
    first neighbour sum), stage %23 (the in-degree factors), stage %18 (the out-degree factors) and the weights. -/
theorem stage44_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x1, .f32⟩ : BufTy).Contents (Elt Ideal)) :
    val_main_v44 (F := Ideal) x0 x1 x2 x3 x4
      = dense 50000 (val_main_v35 (F := Ideal) x0 x1) (val_main_v23 (F := Ideal) x1) (val_main_v18 (F := Ideal) x1) x2 x3 x4 := by
  funext i
  obtain ⟨p, u, rfl⟩ : ∃ (p : Fin 50000) (u : Fin 1), i = ix2 p u := ⟨i 0, i 1, eq_ix2 i⟩
  have hu : u = (0 : Fin 1) := Subsingleton.elim u 0
  subst hu
  rw [dense_apply, val_main_v44_apply, val_main_v43_apply]
  refine congrArg (· * val_main_v18 (F := Ideal) x1 (ix2 p (0 : Fin 1))) ?_
  refine sum_congr rfl fun j _ => ?_
  rw [left43, right43]
  refine congrArg (· * x4 (ix2 j (0 : Fin 1))) ?_
  rw [val_main_v42_apply, val_main_v41_apply, val_main_call2_v0_apply, val_main_call2_cst_apply, val_main_v40_apply, row40,
    val_main_v39_apply, vec39, val_main_v38_apply]
  show max (_ + _) (Ideal.ofBits .f32 0x00000000#32) = _
  rw [Ideal.ofBits_zero_f32]
  refine congrArg (fun z => max (z + x3 (ix1 j)) 0) ?_
  refine sum_congr rfl fun k _ => ?_
  rw [left38, right38, val_main_v37_apply, val_main_v36_apply, col36]
  rfl

end Cert.ReferenceIdeal.Dense

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.KernelBlock.lean ====
/-
  What the kernel stores at one grid point, as the dense pass of the blocks it loaded.

  The body loads a block of 5000 rows of the first neighbour sum, the matching 5000 entries of the in-degree and
  out-degree factor columns, and the whole weights; it stores one value per row. Read at row `p`:
    * the factor column spread over the 64 features reads entry `p` of the column, so the scaled row is
      `x(p, k) · d(p)`;
    * a matrix product into the zero accumulator is the plain sum over the contracted axis, and a change of
      float format is the identity, so the first layer is `Σ_k (x(p, k) · d(p)) · W₁(k, j)`;
    * the bias vector, cast to one row and spread over the rows, reads `b₁(j)`; the splat it is rectified
      against is the zero word;
    * the second product is `Σ_j h(p, j) · W₂(j, u)`, scaled by entry `p` of the other factor column.
  That is `DensePass.dense 5000` of the loaded blocks, index by index.
-/
import proofs.«182225_j463856468204_2_alg».proof.Proof.Gen.KernelIdeal.Skeleton
import proofs.«182225_j463856468204_2_alg».proof.Proof.DensePass
import proofs.«182225_j463856468204_2_alg».proof.Proof.LibPlainMatmul
import proofs.«182225_j463856468204_2_alg».proof.Proof.LibKeepdims
import Idealize.ShloMosaic.Lib.ValueLayout
import Idealize.ShloMosaic.Lib.Pipeline.Value

noncomputable section

namespace Cert.KernelIdeal.Block

open Idealize.ShloMosaic Idealize.ShloMosaic.ValueIdx Cert.KernelIdeal Cert.KernelIdeal.Gen Cert.DensePass Finset

/-- The first product's dimension numbers are those of an ordinary [5000, 64] × [64, 64] product. -/
theorem dims1 : dot_S5000x64_S64x64_S5000x64_1_0_0_1_n_n = DotDims.plain 5000 64 64 := rfl

/-- The second product's are those of an ordinary [5000, 64] × [64, 1] product. -/
theorem dims2 : dot_S5000x64_S64x1_S5000x1_1_0_0_1_n_n = DotDims.plain 5000 64 1 := rfl

/-- The scaled row: the block times the in-degree column spread over the features, at (p, k) (a cast of a shape to
    itself already dropped). -/
theorem scaled_apply (x0 : FVec Ideal S5000x64 .f32) (x1 : FVec Ideal S5000x1 .f32) (p : Fin 5000) (k : Fin 64) (u : Fin 1) :
    (truncf .bf16 (mulf x0 (broadcastTo S5000x64 x1 broadcasts_S5000x1_S5000x64)) bitsLt_bf16_f32
        : FVec Ideal S5000x64 .bf16) (ix2 p k) = x0 (ix2 p k) * x1 (ix2 p u) := by
  show x0 (ix2 p k) * broadcastTo S5000x64 x1 broadcasts_S5000x1_S5000x64 (ix2 p k) = _
  rw [Cert.LibKeepdims.broadcastTo_a1_ab_apply x1 broadcasts_S5000x1_S5000x64 p k u]

/-- The bias, cast to one row and spread over the rows, at (p, j). -/
theorem bias_apply (x4 : FVec Ideal S64 .f32) (p : Fin 5000) (j : Fin 64) :
    broadcastTo S5000x64 (shapeCast S1x64 x4 shapeCasts_S64_S1x64) broadcasts_S1x64_S5000x64 (ix2 p j) = x4 (ix1 j) := by
  rw [broadcastTo_1b_ab_apply (shapeCast S1x64 x4 shapeCasts_S64_S1x64) broadcasts_S1x64_S5000x64 p j,
    shapeCast_a_1a_apply x4 shapeCasts_S64_S1x64 (0 : Fin 1) j]

/-- The stored value is the dense pass of the loaded blocks. -/
theorem pay_eq (x0 : FVec Ideal S5000x64 .f32) (x1 x2 : FVec Ideal S5000x1 .f32) (x3 : FVec Ideal S64x64 .f32)
    (x4 : FVec Ideal S64 .f32) (x5 : FVec Ideal S64x1 .f32) :
    k0_pay1 (F := Ideal) x0 x1 x3 x4 x5 x2 = dense 5000 x0 x1 x2 x3 x4 x5 := by
  funext i
  obtain ⟨p, u, rfl⟩ : ∃ (p : Fin 5000) (u : Fin 1), i = ix2 p u := ⟨i 0, i 1, eq_ix2 i⟩
  rw [dense_apply]
  unfold k0_pay1
  simp only [shapeCast_self]
  refine (mulf_apply _ _ _).trans ?_
  refine congrArg (· * x2 (ix2 p u)) ?_
  rw [dims2]
  refine (matmul_plain_zero_apply 5000 64 1 none _ _ p u).trans ?_
  refine sum_congr rfl fun j _ => ?_
  refine congrArg (· * x5 (ix2 j u)) ?_
  show max (_ + _) (Ideal.ofBits .f32 0x00000000#32) = _
  rw [Ideal.ofBits_zero_f32, bias_apply x4 p j, dims1]
  refine congrArg (fun z => max (z + x4 (ix1 j)) 0) ?_
  refine (matmul_plain_zero_apply 5000 64 64 none _ _ p j).trans ?_
  refine sum_congr rfl fun k _ => ?_
  refine congrArg (· * x3 (ix2 k j)) ?_
  exact scaled_apply x0 x1 p k u

end Cert.KernelIdeal.Block

end
-- ==== Proof.KernelRegion.lean ====
/-
  The array the kernel's one region leaves: the dense pass of the arrays the region finds.

  The grid has ten points; point `t` works on nodes 5000·t … 5000·t + 4999. Its blocks of the first neighbour sum,
  of the two factor columns and of the output are rows 5000·t onward of their arrays, and its "blocks" of the
  weights are the whole weights, at every point. So row `p` of what point `t` writes back — the dense pass of its
  blocks — is node 5000·t + p of the dense pass of the whole arrays: a node's value reads its own row and factors
  only. Every node lies in exactly the block of point ⌊node / 5000⌋, so the ten write-backs fill the output array with
  the dense pass of the arrays as the region finds them (named here as the arrays of windows 0 to 5).
-/
import proofs.«182225_j463856468204_2_alg».proof.Proof.Gen.KernelIdeal.Frame
import proofs.«182225_j463856468204_2_alg».proof.Proof.KernelBlock
import proofs.«182225_j463856468204_2_alg».proof.Proof.DensePass
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen Cert.DensePass
open Idealize.ShloMosaic.Pipeline (Dat)

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a <;> rfl

/-- The output array after the region: the dense pass of the first neighbour sum, the in-degree and out-degree
    factor columns and the weights, each as the region finds it (the arrays of windows 0 to 5, in that order). -/
def G (c : Dev nD) : Buf (Elt Ideal) ((c : Thread nD τ).loc main_v36) :=
  dense 50000 (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- The printed index maps over the ten points: the three node-blocked inputs move with the output, whose block index
    is the point; the weights stay at block zero. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- There are ten points. -/
theorem point_lt : ∀ t : Fin cfg0.N, t.val < 10 := (by decide +kernel : ∀ t : Fin grid0.N, t.val < 10)

/-- Row `p` of point `t`'s blocks is node 5000·t + p. -/
def nodeOf (t : Fin cfg0.N) (p : Fin 5000) : Fin 50000 :=
  ⟨t.val * 5000 + p.val, by have := point_lt t; have := p.isLt; omega⟩

/-- Where the output block's entry (p, u) sits in the output array. -/
theorem emb6 (t : Fin cfg0.N) (p : Fin 5000) (u : Fin 1) : ((cfg0.win 6).blk t).view.emb (ix2 p u) = ix2 (nodeOf t p) u := by
  obtain ⟨-, -, -, -, -, -, -, -, -, -, -, e, e'⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 1 + 1 * u.val = u.val; omega

/-- Where the neighbour-sum block's entry (p, k) sits in its array. -/
theorem emb0 (t : Fin cfg0.N) (p : Fin 5000) (k : Fin 64) : ((cfg0.win 0).blk t).view.emb (ix2 p k) = ix2 (nodeOf t p) k := by
  obtain ⟨e0, e0', -, -, -, -, -, -, -, -, -, e, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- Where the in-degree block's entry (p, u) sits in its column. -/
theorem emb1 (t : Fin cfg0.N) (p : Fin 5000) (u : Fin 1) : ((cfg0.win 1).blk t).view.emb (ix2 p u) = ix2 (nodeOf t p) u := by
  obtain ⟨-, -, e1, e1', -, -, -, -, -, -, -, e, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 1 + 1 * u.val = u.val; omega

/-- Where the out-degree block's entry (p, u) sits in its column. -/
theorem emb2 (t : Fin cfg0.N) (p : Fin 5000) (u : Fin 1) : ((cfg0.win 2).blk t).view.emb (ix2 p u) = ix2 (nodeOf t p) u := by
  obtain ⟨-, -, -, -, e2, e2', -, -, -, -, -, e, -⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 1 + 1 * u.val = u.val; omega

/-- The first layer's weights are staged whole: entry (k, j) of the block is entry (k, j). -/
theorem emb3 (t : Fin cfg0.N) (k j : Fin 64) : ((cfg0.win 3).blk t).view.emb (ix2 k j) = ix2 k j := by
  obtain ⟨-, -, -, -, -, -, e3, e3', -, -, -, -, -⟩ := idx_facts t
  funext a; apply Fin.ext
  match a with
  | ⟨0, _⟩ => show win0_3.index t (0 : Fin 2) * 64 + 1 * k.val = k.val; omega
  | ⟨1, _⟩ => show win0_3.index t (1 : Fin 2) * 64 + 1 * j.val = j.val; omega

/-- So is the bias. -/
theorem emb4 (t : Fin cfg0.N) (j : Fin 64) : ((cfg0.win 4).blk t).view.emb (ix1 j) = ix1 j := by
  obtain ⟨-, -, -, -, -, -, -, -, e4, -, -, -, -⟩ := idx_facts t
  funext a; apply Fin.ext
  match a with
  | ⟨0, _⟩ => show win0_4.index t (0 : Fin 1) * 64 + 1 * j.val = j.val; omega

/-- So are the second layer's weights. -/
theorem emb5 (t : Fin cfg0.N) (j : Fin 64) (u : Fin 1) : ((cfg0.win 5).blk t).view.emb (ix2 j u) = ix2 j u := by
  obtain ⟨-, -, -, -, -, -, -, -, -, e5, e5', -, -⟩ := idx_facts t
  funext a; apply Fin.ext
  match a with
  | ⟨0, _⟩ => show win0_5.index t (0 : Fin 2) * 64 + 1 * j.val = j.val; omega
  | ⟨1, _⟩ => show win0_5.index t (1 : Fin 2) * 1 + 1 * u.val = u.val; omega

/-! Reading a point's block of an array is reading the array at the node the row stands for. Each lemma is about ANY
    array of the window's shape, so that what the region finds in the window's array never has to be looked into. -/

/-- Point `t`'s block of ANY [50000, 64] array, read at (p, k), is the array at node 5000·t + p. -/
theorem read0 (X : S50000x64.Idx → EReal) (t : Fin cfg0.N) (p : Fin 5000) (k : Fin 64) :
    ((cfg0.win 0).blk t).view.read (Elt Ideal) X (ix2 p k) = X (ix2 (nodeOf t p) k) := by
  show X (((cfg0.win 0).blk t).view.emb (ix2 p k)) = _
  rw [emb0]

/-- Point `t`'s block of any [50000, 1] column staged as window 1, read at (p, u). -/
theorem read1 (X : S50000x1.Idx → EReal) (t : Fin cfg0.N) (p : Fin 5000) (u : Fin 1) :
    ((cfg0.win 1).blk t).view.read (Elt Ideal) X (ix2 p u) = X (ix2 (nodeOf t p) u) := by
  show X (((cfg0.win 1).blk t).view.emb (ix2 p u)) = _
  rw [emb1]

/-- The same for window 2. -/
theorem read2 (X : S50000x1.Idx → EReal) (t : Fin cfg0.N) (p : Fin 5000) (u : Fin 1) :
    ((cfg0.win 2).blk t).view.read (Elt Ideal) X (ix2 p u) = X (ix2 (nodeOf t p) u) := by
  show X (((cfg0.win 2).blk t).view.emb (ix2 p u)) = _
  rw [emb2]

/-- The whole-array windows: the block is the array. -/
theorem read3 (X : S64x64.Idx → EReal) (t : Fin cfg0.N) (k j : Fin 64) :
    ((cfg0.win 3).blk t).view.read (Elt Ideal) X (ix2 k j) = X (ix2 k j) := by
  show X (((cfg0.win 3).blk t).view.emb (ix2 k j)) = _
  rw [emb3]

/-- The bias is staged whole too. -/
theorem read4 (X : S64.Idx → EReal) (t : Fin cfg0.N) (j : Fin 64) :
    ((cfg0.win 4).blk t).view.read (Elt Ideal) X (ix1 j) = X (ix1 j) := by
  show X (((cfg0.win 4).blk t).view.emb (ix1 j)) = _
  rw [emb4]

/-- And the second layer's weights. -/
theorem read5 (X : S64x1.Idx → EReal) (t : Fin cfg0.N) (j : Fin 64) (u : Fin 1) :
    ((cfg0.win 5).blk t).view.read (Elt Ideal) X (ix2 j u) = X (ix2 j u) := by
  show X (((cfg0.win 5).blk t).view.emb (ix2 j u)) = _
  rw [emb5]

/-- Point `t`'s block of ANY [50000, 1] array staged as the output window, read at (p, u). -/
theorem read6 (X : S50000x1.Idx → EReal) (t : Fin cfg0.N) (p : Fin 5000) (u : Fin 1) :
    ((cfg0.win 6).blk t).view.read (Elt Ideal) X (ix2 p u) = X (ix2 (nodeOf t p) u) := by
  show X (((cfg0.win 6).blk t).view.emb (ix2 p u)) = _
  rw [emb6]

/-- Row `p` of the dense pass of point `t`'s blocks is node 5000·t + p of the dense pass of the whole arrays. -/
theorem block_read (c : Dev nD) (t : Fin cfg0.N) (p : Fin 5000) (u : Fin 1) :
    dense 5000 (iblk m c 0 t) (iblk m c 1 t) (iblk m c 2 t) (iblk m c 3 t) (iblk m c 4 t) (iblk m c 5 t) (ix2 p u)
      = dense 50000 (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (ix2 (nodeOf t p) u) := by
  unfold iblk
  refine dense_congr (A := 5000) (B := 50000) _ _ _ _ _ _ (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))
    p (nodeOf t p) u ?_ ?_ ?_ ?_ ?_ ?_
  · exact fun k => read0 (V m c (Pipeline.arrRef spec0 0)) t p k
  · exact read1 (V m c (Pipeline.arrRef spec0 1)) t p u
  · exact read2 (V m c (Pipeline.arrRef spec0 2)) t p u
  · exact fun k j => read3 (V m c (Pipeline.arrRef spec0 3)) t k j
  · exact fun j => read4 (V m c (Pipeline.arrRef spec0 4)) t j
  · exact fun j => read5 (V m c (Pipeline.arrRef spec0 5)) t j u

/-- What point `t` writes back is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero off2]
  simp only [View.ld_unit_zero (S := S5000x64) off2, View.ld_unit_zero (S := S5000x1) off2, View.ld_unit_zero (S := S64x64) off2,
    View.ld_unit_zero (S := S64) off1, View.ld_unit_zero (S := S64x1) off2]
  rw [Cert.KernelIdeal.Block.pay_eq (iblk m c 0 t) (iblk m c 1 t) (iblk m c 2 t) (iblk m c 3 t) (iblk m c 4 t) (iblk m c 5 t)]
  funext y
  obtain ⟨p, u, rfl⟩ : ∃ (p : Fin 5000) (u : Fin 1), y = ix2 p u := ⟨y 0, y 1, eq_ix2 y⟩
  show dense 5000 (iblk m c 0 t) (iblk m c 1 t) (iblk m c 2 t) (iblk m c 3 t) (iblk m c 4 t) (iblk m c 5 t) (ix2 p u) = _
  refine Eq.trans ?_ (read6 (G m c) t p u).symm
  unfold G
  exact block_read m c t p u

/-- An index of the output array is in point `t`'s block iff each coordinate is in the block's range on its axis. -/
theorem mem_blk (t : Fin cfg0.N) (i : S50000x1.Idx) :
    i ∈ ((cfg0.win 6).blk t).view.set ↔ ∀ a : Fin 2, win0_6.index t a * S5000x1.size a ≤ (i a).val
      ∧ (i a).val < win0_6.index t a * S5000x1.size a + S5000x1.size a := by
  show i ∈ ((View.whole main_v36).slice (win0_6.rect t)).set ↔ _
  rw [View.set_slice_whole, Rect.mem_set_unit]
  exact Iff.rfl

/-- Every node is written back by the point its block of 5000 belongs to. -/
theorem cover (i : S50000x1.Idx) : ∃ t : Fin cfg0.N, (cfg0.win 6).flush t = true ∧ i ∈ ((cfg0.win 6).blk t).view.set := by
  have hi0 : (i 0).val < 50000 := (i 0).isLt
  have hi1 : (i 1).val < 1 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, -, -, -, -, -, e, e'⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 1 ≤ (i 1).val ∧ (i 1).val < win0_6.index t (1 : Fin 2) * 1 + 1
    omega

/-- The output array after the ten points is `G`. -/
theorem final (c : Dev nD) : (dats m 0 c).arrAt 6 cfg0.N = G m c :=
  (dats m 0 c).arrAt_eq_of_cover 6 (G m c) (fun t _ => flushed_eq m c t) cover

end Cert.KernelIdeal.Region

end
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.KernelHost.lean ====
/-
  The kernel program's host operations, read in the reference's terms.

  Before its region the kernel program runs, operation for operation, the reference's own first thirty-six stages:
  the edge lists with self-loops appended, the two degree counts, their rectified inverse square roots as columns,
  and the first neighbour sum of the scaled features. So each array the region is launched on is the reference's
  stage of the same number, as a function of the argument arrays. The comparison is made one stretch of operations
  at a time, each stretch from buffer contents already known in the reference's terms.
  After its region the program runs the reference's last fourteen stages on the region's output. That chain is
  `Chain.tail`; it is stated here over ANY contents of the buffers the chain reads, so that what the region left
  enters as a hypothesis and the chain is never opened.
-/
import proofs.«182225_j463856468204_2_alg».proof.Proof.Gen.KernelIdeal.Frame
import proofs.«182225_j463856468204_2_alg».proof.Proof.HostChain
import Idealize.ShloMosaic.Lib.StableHlo.Run
import proofs.«182225_j463856468204_2_alg».proof.Proof.LibAfterAppend

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-! The operations before the region come in five stretches (the two `where`s are functions of their own). Each
    stretch is read from ANY buffer contents in which the buffers it reads hold the reference's stages, so that no
    comparison is ever longer than one stretch. `x0` is the feature array, `x1` the edge array. -/

section Stretches

variable (W : Valuation τ sig (Elt Ideal))
  (x0 : (⟨Cert.ReferenceIdeal.S50000x64, .f32⟩ : BufTy).Contents (Elt Ideal))
  (x1 : (⟨Cert.ReferenceIdeal.S2x800000, .i32⟩ : BufTy).Contents (Elt Ideal))

/-- After the first stretch (the node lists, the two degree counts, the out-degree's sign test and inverse square
    root): each buffer the later stretches read holds the reference's stage of the same number. -/
structure LevA : Prop where
  src : (W (Proc.devRef .tc main_v3) : S850000.Idx → BitVec 32) = Cert.ReferenceIdeal.ReadP.val_main_v3 (F := Ideal) x1
  dst : (W (Proc.devRef .tc main_v6) : S850000.Idx → BitVec 32) = Cert.ReferenceIdeal.ReadP.val_main_v6 (F := Ideal) x1
  degIn : (W (Proc.devRef .tc main_v13) : S50000.Idx → EReal) = Cert.ReferenceIdeal.ReadP.val_main_v13 (F := Ideal) x1
  posOut : (W (Proc.devRef .tc main_v15) : S50000.Idx → BitVec 1) = Cert.ReferenceIdeal.ReadP.val_main_v15 (F := Ideal) x1
  invOut : (W (Proc.devRef .tc main_v16) : S50000.Idx → EReal) = Cert.ReferenceIdeal.ReadP.val_main_v16 (F := Ideal) x1
  zeroOut : (W (Proc.devRef .tc main_cst_3) : S_.Idx → EReal) = Cert.ReferenceIdeal.ReadP.val_main_cst_3 (F := Ideal)
  feat : (W (Proc.devRef .tc main_arg0) : S50000x64.Idx → EReal) = x0

/-- After the first `where` (the out-degree factor, 0 where the degree is 0). -/
structure LevB : Prop where
  facOut : (W (Proc.devRef .tc main_v17) : S50000.Idx → EReal) = Cert.ReferenceIdeal.ReadP.val_main_v17 (F := Ideal) x1
  degIn : (W (Proc.devRef .tc main_v13) : S50000.Idx → EReal) = Cert.ReferenceIdeal.ReadP.val_main_v13 (F := Ideal) x1
  feat : (W (Proc.devRef .tc main_arg0) : S50000x64.Idx → EReal) = x0
  src : (W (Proc.devRef .tc main_v3) : S850000.Idx → BitVec 32) = Cert.ReferenceIdeal.ReadP.val_main_v3 (F := Ideal) x1
  dst : (W (Proc.devRef .tc main_v6) : S850000.Idx → BitVec 32) = Cert.ReferenceIdeal.ReadP.val_main_v6 (F := Ideal) x1

/-- After the third stretch (the out-degree factor as a column; the in-degree's sign test and inverse square root). -/
structure LevC : Prop where
  ns : (W (Proc.devRef .tc main_v18) : S50000x1.Idx → EReal) = Cert.ReferenceIdeal.ReadP.val_main_v18 (F := Ideal) x1
  posIn : (W (Proc.devRef .tc main_v20) : S50000.Idx → BitVec 1) = Cert.ReferenceIdeal.ReadP.val_main_v20 (F := Ideal) x1
  invIn : (W (Proc.devRef .tc main_v21) : S50000.Idx → EReal) = Cert.ReferenceIdeal.ReadP.val_main_v21 (F := Ideal) x1
  zeroIn : (W (Proc.devRef .tc main_cst_5) : S_.Idx → EReal) = Cert.ReferenceIdeal.ReadP.val_main_cst_5 (F := Ideal)
  feat : (W (Proc.devRef .tc main_arg0) : S50000x64.Idx → EReal) = x0
  src : (W (Proc.devRef .tc main_v3) : S850000.Idx → BitVec 32) = Cert.ReferenceIdeal.ReadP.val_main_v3 (F := Ideal) x1
  dst : (W (Proc.devRef .tc main_v6) : S850000.Idx → BitVec 32) = Cert.ReferenceIdeal.ReadP.val_main_v6 (F := Ideal) x1

/-- After the second `where` (the in-degree factor). -/
structure LevD : Prop where
  facIn : (W (Proc.devRef .tc main_v22) : S50000.Idx → EReal) = Cert.ReferenceIdeal.ReadP.val_main_v22 (F := Ideal) x1
  ns : (W (Proc.devRef .tc main_v18) : S50000x1.Idx → EReal) = Cert.ReferenceIdeal.ReadP.val_main_v18 (F := Ideal) x1
  feat : (W (Proc.devRef .tc main_arg0) : S50000x64.Idx → EReal) = x0
  src : (W (Proc.devRef .tc main_v3) : S850000.Idx → BitVec 32) = Cert.ReferenceIdeal.ReadP.val_main_v3 (F := Ideal) x1
  dst : (W (Proc.devRef .tc main_v6) : S850000.Idx → BitVec 32) = Cert.ReferenceIdeal.ReadP.val_main_v6 (F := Ideal) x1

/-- When the region is entered: the in-degree factor as a column, the scaled features gathered along the source list
    and summed into their destinations. -/
structure LevE : Prop where
  m1 : (W (Proc.devRef .tc main_v35) : S50000x64.Idx → EReal) = Cert.ReferenceIdeal.ReadP.val_main_v35 (F := Ideal) x0 x1
  nd : (W (Proc.devRef .tc main_v23) : S50000x1.Idx → EReal) = Cert.ReferenceIdeal.ReadP.val_main_v23 (F := Ideal) x1
  ns : (W (Proc.devRef .tc main_v18) : S50000x1.Idx → EReal) = Cert.ReferenceIdeal.ReadP.val_main_v18 (F := Ideal) x1
  src : (W (Proc.devRef .tc main_v3) : S850000.Idx → BitVec 32) = Cert.ReferenceIdeal.ReadP.val_main_v3 (F := Ideal) x1
  dst : (W (Proc.devRef .tc main_v6) : S850000.Idx → BitVec 32) = Cert.ReferenceIdeal.ReadP.val_main_v6 (F := Ideal) x1

set_option maxRecDepth 8192 in
set_option maxHeartbeats 4000000 in
/-- The first stretch, from the memory the program is launched on. -/
theorem levA (c : Dev nD) :
    LevA (StableHlo.after (hostOps0 (F := Ideal)) (fun b => m (c, b))) (m ((c : Thread nD τ).loc main_arg0)) (m ((c : Thread nD τ).loc main_arg1)) where
  src := by simp only [hostOps0]; after_results_simp; rfl
  dst := by simp only [hostOps0]; after_results_simp; rfl
  degIn := by simp only [hostOps0]; after_results_simp; rfl
  posOut := by simp only [hostOps0]; after_results_simp; rfl
  invOut := by simp only [hostOps0]; after_results_simp; rfl
  zeroOut := by simp only [hostOps0]; after_results_simp; rfl
  feat := by simp only [hostOps0]; after_results_simp

/-- A `where`: from ANY buffer contents whose sign test holds `cnd`, whose inverse square root holds `val` and whose
    scalar holds `z`, the call leaves `val` where `cnd` is set and `z` elsewhere. (The call's own buffers are typed
    references; reading through one is a transport along an equation of types that holds by computation.) -/
theorem where_out (W : Valuation τ sig (Elt Ideal)) (cnd : S50000.Idx → BitVec 1) (val : S50000.Idx → EReal) (z : S_.Idx → EReal)
    (hc : (W (Proc.devRef .tc main_v15) : S50000.Idx → BitVec 1) = cnd)
    (hv : (W (Proc.devRef .tc main_v16) : S50000.Idx → EReal) = val)
    (hz : (W (Proc.devRef .tc main_cst_3) : S_.Idx → EReal) = z) :
    (StableHlo.after (hostOps0_1 (F := Ideal)) W (Proc.devRef .tc main_v17) : S50000.Idx → EReal)
      = select cnd val (broadcastInDim S50000 ![] bcast_S_S50000 z) := by
  simp only [hostOps0_1]
  after_results_simp
  rw [hc, hv, hz]
  simp only [cast_eq, id]

/-- The second `where`, on the in-degree's buffers. -/
theorem where_in (W : Valuation τ sig (Elt Ideal)) (cnd : S50000.Idx → BitVec 1) (val : S50000.Idx → EReal) (z : S_.Idx → EReal)
    (hc : (W (Proc.devRef .tc main_v20) : S50000.Idx → BitVec 1) = cnd)
    (hv : (W (Proc.devRef .tc main_v21) : S50000.Idx → EReal) = val)
    (hz : (W (Proc.devRef .tc main_cst_5) : S_.Idx → EReal) = z) :
    (StableHlo.after (hostOps0_3 (F := Ideal)) W (Proc.devRef .tc main_v22) : S50000.Idx → EReal)
      = select cnd val (broadcastInDim S50000 ![] bcast_S_S50000 z) := by
  simp only [hostOps0_3]
  after_results_simp
  rw [hc, hv, hz]
  simp only [cast_eq, id]

/-- The reference's stage %17 is that selection of its stages %15, %16 and its zero scalar. -/
theorem stage17 (x1 : (⟨Cert.ReferenceIdeal.S2x800000, .i32⟩ : BufTy).Contents (Elt Ideal)) :
    (select (Cert.ReferenceIdeal.ReadP.val_main_v15 (F := Ideal) x1) (Cert.ReferenceIdeal.ReadP.val_main_v16 (F := Ideal) x1)
        (broadcastInDim S50000 ![] bcast_S_S50000 (Cert.ReferenceIdeal.ReadP.val_main_cst_3 (F := Ideal))) : S50000.Idx → EReal)
      = Cert.ReferenceIdeal.ReadP.val_main_v17 (F := Ideal) x1 := by
  unfold Cert.ReferenceIdeal.ReadP.val_main_v17 Cert.ReferenceIdeal.ReadP.val_main_call0_v1 Cert.ReferenceIdeal.ReadP.val_main_call0_v0
  rfl

/-- Its stage %22 is the same selection of its stages %20, %21. -/
theorem stage22 (x1 : (⟨Cert.ReferenceIdeal.S2x800000, .i32⟩ : BufTy).Contents (Elt Ideal)) :
    (select (Cert.ReferenceIdeal.ReadP.val_main_v20 (F := Ideal) x1) (Cert.ReferenceIdeal.ReadP.val_main_v21 (F := Ideal) x1)
        (broadcastInDim S50000 ![] bcast_S_S50000 (Cert.ReferenceIdeal.ReadP.val_main_cst_5 (F := Ideal))) : S50000.Idx → EReal)
      = Cert.ReferenceIdeal.ReadP.val_main_v22 (F := Ideal) x1 := by
  unfold Cert.ReferenceIdeal.ReadP.val_main_v22 Cert.ReferenceIdeal.ReadP.val_main_call1_v1 Cert.ReferenceIdeal.ReadP.val_main_call1_v0
  rfl

/-- The first `where`: the out-degree factor; it writes nothing else the later stretches read. -/
theorem levB (h : LevA W x0 x1) : LevB (StableHlo.after (hostOps0_1 (F := Ideal)) W) x0 x1 where
  facOut := (where_out W _ _ _ h.posOut h.invOut h.zeroOut).trans (stage17 x1)
  degIn := by simp only [hostOps0_1]; after_results_simp; rw [h.degIn]
  feat := by simp only [hostOps0_1]; after_results_simp; rw [h.feat]
  src := by simp only [hostOps0_1]; after_results_simp; rw [h.src]
  dst := by simp only [hostOps0_1]; after_results_simp; rw [h.dst]

/-- The third stretch: the out-degree factor made a column; the in-degree's sign test and inverse square root. -/
theorem levC (h : LevB W x0 x1) : LevC (StableHlo.after (hostOps0_2 (F := Ideal)) W) x0 x1 where
  ns := by simp only [hostOps0_2]; after_results_simp; rw [h.facOut]; rfl
  posIn := by simp only [hostOps0_2]; after_results_simp; rw [h.degIn]; rfl
  invIn := by simp only [hostOps0_2]; after_results_simp; rw [h.degIn]; rfl
  zeroIn := by simp only [hostOps0_2]; after_results_simp; rfl
  feat := by simp only [hostOps0_2]; after_results_simp; rw [h.feat]
  src := by simp only [hostOps0_2]; after_results_simp; rw [h.src]
  dst := by simp only [hostOps0_2]; after_results_simp; rw [h.dst]

/-- The second `where`: the in-degree factor. -/
theorem levD (h : LevC W x0 x1) : LevD (StableHlo.after (hostOps0_3 (F := Ideal)) W) x0 x1 where
  facIn := (where_in W _ _ _ h.posIn h.invIn h.zeroIn).trans (stage22 x1)
  ns := by simp only [hostOps0_3]; after_results_simp; rw [h.ns]
  feat := by simp only [hostOps0_3]; after_results_simp; rw [h.feat]
  src := by simp only [hostOps0_3]; after_results_simp; rw [h.src]
  dst := by simp only [hostOps0_3]; after_results_simp; rw [h.dst]

set_option maxRecDepth 8192 in
set_option maxHeartbeats 4000000 in
/-- The last stretch before the region: the in-degree factor made a column; the features scaled by the out-degree
    column, gathered along the source list and summed into their destination nodes. -/
theorem levE (h : LevD W x0 x1) : LevE (StableHlo.after (hostOps0_4 (F := Ideal)) W) x0 x1 where
  m1 := by simp only [hostOps0_4]; after_results_simp; rw [h.feat, h.ns, h.src, h.dst]; rfl
  nd := by simp only [hostOps0_4]; after_results_simp; rw [h.facIn]; rfl
  ns := by simp only [hostOps0_4]; after_results_simp; rw [h.ns]
  src := by simp only [hostOps0_4]; after_results_simp; rw [h.src]
  dst := by simp only [hostOps0_4]; after_results_simp; rw [h.dst]

end Stretches

/-- The buffer contents the region is entered with are the five stretches' folds, one after the other. -/
theorem V0_eq (c : Dev nD) :
    V0 m c = StableHlo.after (hostOps0_4 (F := Ideal)) (StableHlo.after (hostOps0_3 (F := Ideal)) (StableHlo.after (hostOps0_2 (F := Ideal))
      (StableHlo.after (hostOps0_1 (F := Ideal)) (StableHlo.after (hostOps0 (F := Ideal)) (fun b => m (c, b)))))) := by
  show StableHlo.after (List.flatten [hostOps0, hostOps0_1, hostOps0_2, hostOps0_3, hostOps0_4]) (fun b => m (c, b)) = _
  rw [List.flatten_cons, List.flatten_cons, List.flatten_cons, List.flatten_cons, List.flatten_cons, List.flatten_nil, List.append_nil,
    after_append, after_append, after_append, after_append]

/-- What the region finds, in the reference's terms. -/
theorem entry (c : Dev nD) : LevE (V0 m c) (m ((c : Thread nD τ).loc main_arg0)) (m ((c : Thread nD τ).loc main_arg1)) := by
  rw [V0_eq]
  exact levE _ _ _ (levD _ _ _ (levC _ _ _ (levB _ _ _ (levA m c))))

/-- The source-node list (edges, then one self-loop per node) is the reference's stage %3. -/
theorem V_src (c : Dev nD) :
    (V m c main_v3 : S850000.Idx → BitVec 32) = Cert.ReferenceIdeal.ReadP.val_main_v3 (F := Ideal) (m ((c : Thread nD τ).loc main_arg1)) := (entry m c).src

/-- The destination-node list is the reference's stage %6. -/
theorem V_dst (c : Dev nD) :
    (V m c main_v6 : S850000.Idx → BitVec 32) = Cert.ReferenceIdeal.ReadP.val_main_v6 (F := Ideal) (m ((c : Thread nD τ).loc main_arg1)) := (entry m c).dst

/-- The out-degree factor column is the reference's stage %18. -/
theorem V_ns (c : Dev nD) :
    (V m c main_v18 : S50000x1.Idx → EReal) = Cert.ReferenceIdeal.ReadP.val_main_v18 (F := Ideal) (m ((c : Thread nD τ).loc main_arg1)) := (entry m c).ns

/-- The in-degree factor column is the reference's stage %23. -/
theorem V_nd (c : Dev nD) :
    (V m c main_v23 : S50000x1.Idx → EReal) = Cert.ReferenceIdeal.ReadP.val_main_v23 (F := Ideal) (m ((c : Thread nD τ).loc main_arg1)) := (entry m c).nd

/-- The first neighbour sum is the reference's stage %35. -/
theorem V_m1 (c : Dev nD) :
    (V m c main_v35 : S50000x64.Idx → EReal)
      = Cert.ReferenceIdeal.ReadP.val_main_v35 (F := Ideal) (m ((c : Thread nD τ).loc main_arg0)) (m ((c : Thread nD τ).loc main_arg1)) := (entry m c).m1

set_option maxRecDepth 8192 in
set_option maxHeartbeats 8000000 in
/-- The operations after the region, from ANY buffer contents `W` in which the region's output holds `z`, the two node
    lists and the in-degree column hold the reference's stages of the edge array `x1`, and the bias holds `x5`: the
    result buffer ends at the shared chain of `z`. -/
theorem tail_of (W : Valuation τ sig (Elt Ideal)) (z : S50000x1.Idx → EReal)
    (x1 : (⟨Cert.ReferenceIdeal.S2x800000, .i32⟩ : BufTy).Contents (Elt Ideal))
    (x5 : (⟨Cert.ReferenceIdeal.S1, .f32⟩ : BufTy).Contents (Elt Ideal))
    (h36 : (W (Proc.devRef .tc main_v36) : S50000x1.Idx → EReal) = z)
    (h3 : (W (Proc.devRef .tc main_v3) : S850000.Idx → BitVec 32) = Cert.ReferenceIdeal.ReadP.val_main_v3 (F := Ideal) x1)
    (h6 : (W (Proc.devRef .tc main_v6) : S850000.Idx → BitVec 32) = Cert.ReferenceIdeal.ReadP.val_main_v6 (F := Ideal) x1)
    (h23 : (W (Proc.devRef .tc main_v23) : S50000x1.Idx → EReal) = Cert.ReferenceIdeal.ReadP.val_main_v23 (F := Ideal) x1)
    (h5 : (W (Proc.devRef .tc main_arg5) : S1.Idx → EReal) = x5) :
    (StableHlo.after (hostOps1 (F := Ideal)) W (Proc.devRef .tc main_v50) : S50000x1.Idx → EReal)
      = Cert.ReferenceIdeal.Chain.tail (F := Ideal) z x1 x5 := by
  simp only [hostOps1]
  after_results_simp
  rw [h36, h3, h6, h23, h5]
  rfl

end Cert.KernelIdeal.Host

end
-- ==== Proof.KernelResult.lean ====
/-
  The kernel program's result, as the shared chain applied to the dense pass of the reference's own stages.

  The region's output array is the dense pass of the arrays the region finds (the region's module); those arrays
  are the reference's stages %35, %23 and %18 of the argument arrays and the weights themselves (the host module);
  and the operations after the region are the shared chain, applied to what the region left (the host module again,
  with the buffers' contents after the region read off the frame run: the region's output at what the ten points
  wrote, the two factor columns and every buffer no window stages as the region found them).
-/
import proofs.«182225_j463856468204_2_alg».proof.Proof.KernelRegion
import proofs.«182225_j463856468204_2_alg».proof.Proof.KernelHost

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ)

/-- The region's output in the reference's terms: the dense pass of stages %35, %23, %18 and the weights. -/
theorem G_eq (c : Dev nD) :
    (Region.G m c : S50000x1.Idx → EReal) = (Cert.DensePass.dense 50000
        (Cert.ReferenceIdeal.ReadP.val_main_v35 (F := Ideal) (m ((c : Thread nD τ).loc main_arg0)) (m ((c : Thread nD τ).loc main_arg1)))
        (Cert.ReferenceIdeal.ReadP.val_main_v23 (F := Ideal) (m ((c : Thread nD τ).loc main_arg1)))
        (Cert.ReferenceIdeal.ReadP.val_main_v18 (F := Ideal) (m ((c : Thread nD τ).loc main_arg1)))
        (m ((c : Thread nD τ).loc main_arg2)) (m ((c : Thread nD τ).loc main_arg3)) (m ((c : Thread nD τ).loc main_arg4))) := by
  unfold Region.G
  exact Cert.DensePass.dense_of_eq (Host.V_m1 m c) (Host.V_nd m c) (Host.V_ns m c) (V_main_arg2 m c) (V_main_arg3 m c) (V_main_arg4 m c)

/-- The program's result buffer after the operations that follow the region. -/
theorem result_eq (c : Dev nD) :
    (Pipeline.afterTail₀ cfgs (dats m) 0 (V0 m) [hostOps1] c main_v50 : S50000x1.Idx → EReal)
      = Cert.ReferenceIdeal.Chain.tail (F := Ideal) (Cert.DensePass.dense 50000
        (Cert.ReferenceIdeal.ReadP.val_main_v35 (F := Ideal) (m ((c : Thread nD τ).loc main_arg0)) (m ((c : Thread nD τ).loc main_arg1)))
        (Cert.ReferenceIdeal.ReadP.val_main_v23 (F := Ideal) (m ((c : Thread nD τ).loc main_arg1)))
        (Cert.ReferenceIdeal.ReadP.val_main_v18 (F := Ideal) (m ((c : Thread nD τ).loc main_arg1)))
        (m ((c : Thread nD τ).loc main_arg2)) (m ((c : Thread nD τ).loc main_arg3)) (m ((c : Thread nD τ).loc main_arg4))) (m ((c : Thread nD τ).loc main_arg1)) (m ((c : Thread nD τ).loc main_arg5)) := by
  unfold Pipeline.afterTail₀
  show (StableHlo.after (hostOps1 (F := Ideal)) (Pipeline.withArrays spec0 c (V0 m c) fun w => (dats m 0 c).arrAt w cfg0.N)
      (Proc.devRef .tc main_v50) : S50000x1.Idx → EReal) = _
  refine Host.tail_of (Pipeline.withArrays spec0 c (V0 m c) fun w => (dats m 0 c).arrAt w cfg0.N) _ _ _ ?_ ?_ ?_ ?_ ?_
  · exact (Pipeline.withArrays_arr spec0 launch0.win.arr_inj c _ _ 6).trans ((Region.final m c).trans (G_eq m c))
  · exact (Pipeline.withArrays_of_ne spec0 c (V0 m c) _ main_v3 (by decide)).trans (Host.V_src m c)
  · exact (Pipeline.withArrays_of_ne spec0 c (V0 m c) _ main_v6 (by decide)).trans (Host.V_dst m c)
  · exact (Pipeline.withArrays_arr spec0 launch0.win.arr_inj c _ _ 1).trans
      (((dats m 0 c).arrAt_in 1 rfl _).trans ((A_eq m c 1).trans (Host.V_nd m c)))
  · exact (Pipeline.withArrays_of_ne spec0 c (V0 m c) _ main_arg5 (by decide)).trans (V_main_arg5 m c)

/-- The run: every weakly fair execution of the program ends with the result at the shared chain of the dense pass
    of the reference's stages, and with its argument arrays as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v50)
          = Cert.ReferenceIdeal.Chain.tail (F := Ideal) (Cert.DensePass.dense 50000
        (Cert.ReferenceIdeal.ReadP.val_main_v35 (F := Ideal) (m ((c : Thread nD τ).loc main_arg0)) (m ((c : Thread nD τ).loc main_arg1)))
        (Cert.ReferenceIdeal.ReadP.val_main_v23 (F := Ideal) (m ((c : Thread nD τ).loc main_arg1)))
        (Cert.ReferenceIdeal.ReadP.val_main_v18 (F := Ideal) (m ((c : Thread nD τ).loc main_arg1)))
        (m ((c : Thread nD τ).loc main_arg2)) (m ((c : Thread nD τ).loc main_arg3)) (m ((c : Thread nD τ).loc main_arg4))) (m ((c : Thread nD τ).loc main_arg1)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v50 (Pipeline.mem_restRefs_of main_v50 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c)⟩)
    (run_main m ρ)

end Cert.KernelIdeal.Result

end
-- ==== Proof.lean ====
/-
  A two-layer graph convolution with symmetric degree normalisation and self-loops, over 50000 nodes, 800000 edges
  and 64 features: the kernel program against its plain reference, equal at the ideal values.

  Both programs compute, from the edge array, the source and destination lists (a self-loop appended per node), the
  out- and in-degrees, and the factors 1/√degree (0 where the degree is 0); then

      first neighbour sum   m₁ = Σ over edges into a node of (x · out-factor) at the edge's source,
      dense middle          z  = ( relu( (m₁ · in-factor) W₁ + b₁ ) W₂ ) · out-factor,     node by node,
      second neighbour sum  out = (Σ over edges into a node of z at the edge's source) · in-factor + b₂.

  The reference does all of it with whole-array operations. The kernel program does the two neighbour sums and the
  degree factors with the same whole-array operations, in the same order, and the dense middle in one region of ten
  grid points, 5000 nodes each, with both matrix products into a zero accumulator on operands narrowed to bf16.
  At the ideal values a change of float format is the identity and a matrix product is the plain sum over the
  contracted axis, whichever operation spells it; and a node's value in the dense middle reads that node's row and
  factors only, so computing it 5000 nodes at a time changes nothing. No law of arithmetic beyond that is used: the
  two programs form the same sums of the same products in the same order, and the precondition is never opened.

  The proof names the dense middle once (`DensePass.dense`) and the operations after it once (`Chain.tail`), shows
  each program's result to be `tail (dense …)` of the reference's own earlier stages of the argument arrays, and joins
  the two by the arguments' agreement. The idealisation rewrote nothing, so that conjunct holds trivially.
-/
import proofs.«182225_j463856468204_2_alg».proof.Defs
import proofs.«182225_j463856468204_2_alg».proof.Proof.Gen.Kernel
import proofs.«182225_j463856468204_2_alg».proof.Proof.Gen.Kernel.Skeleton
import proofs.«182225_j463856468204_2_alg».proof.Proof.Gen.Kernel.Launch
import proofs.«182225_j463856468204_2_alg».proof.Proof.Gen.Kernel.Points
import proofs.«182225_j463856468204_2_alg».proof.Proof.Gen.Kernel.Frame
import proofs.«182225_j463856468204_2_alg».proof.Proof.Gen.KernelIdeal
import proofs.«182225_j463856468204_2_alg».proof.Proof.Gen.KernelIdeal.Skeleton
import proofs.«182225_j463856468204_2_alg».proof.Proof.Gen.KernelIdeal.Launch
import proofs.«182225_j463856468204_2_alg».proof.Proof.Gen.KernelIdeal.Points
import proofs.«182225_j463856468204_2_alg».proof.Proof.Gen.KernelIdeal.Frame
import proofs.«182225_j463856468204_2_alg».proof.Proof.Gen.ReferenceIdeal
import proofs.«182225_j463856468204_2_alg».proof.Proof.Gen.Pre_finite_inputs
import proofs.«182225_j463856468204_2_alg».proof.Proof.RefRunPatched
import proofs.«182225_j463856468204_2_alg».proof.Proof.RefReadPatched
import proofs.«182225_j463856468204_2_alg».proof.Proof.HostChain
import proofs.«182225_j463856468204_2_alg».proof.Proof.RefDense
import proofs.«182225_j463856468204_2_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- The reference runs and keeps its arguments: its run, with the result's conjunct dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both programs end at the shared chain of the dense pass of the reference's stages %35, %23, %18 and the
    weights: the kernel program by its run, the reference because its stage %58 is the chain of its stage %44, and
    its stage %44 is that dense pass; the arguments agree. -/
theorem algebraic : Cert.algebraic_KernelIdeal_ReferenceIdeal := by
  intro m ρ m' ρ' _ hagree
  refine ⟨fun c => Cert.ReferenceIdeal.Chain.tail (F := Ideal)
      (Cert.DensePass.dense 50000
        (Cert.ReferenceIdeal.ReadP.val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
        (Cert.ReferenceIdeal.ReadP.val_main_v23 (F := Ideal) (m ((c.tc : Thread Cert.KernelIdeal.nD Cert.KernelIdeal.τ).loc Cert.KernelIdeal.main_arg1)))
        (Cert.ReferenceIdeal.ReadP.val_main_v18 (F := Ideal) (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  rw [Cert.ReferenceIdeal.ReadP.val_main_v58_eq, Cert.ReferenceIdeal.Chain.stage58_eq, Cert.ReferenceIdeal.Dense.stage44_eq,
    a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
